-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x1 .f32) (main_arg13 : FVec F S1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1 .f32 := Host.absf main_arg12
  let main_cst_22 : FVec F S_ .f32 := constant S_ .f32 0x7F800000#32
  let main_v60 : FVec F S512x1 .f32 := broadcastInDim S512x1 ![] bcast_S_S512x1 main_cst_22
  let main_v61 : IVec S512x1 1 := cmpf .olt main_v59 main_v60
  let main_c_23 : IVec S_ 1 := constantI S_ 1 1#1
  let main_v62 : IVec S_ 1 := (fun x v => Host.reduce IntOp.andi x v reducesTo_S512x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S1 .f32) (main_arg8 : FVec F S512x512 .f32) (main_arg9 : FVec F S512 .f32) (main_arg10 : FVec F S512x512 .f32) (main_arg11 : FVec F S512 .f32) (main_arg12 : FVec F S512x1 .f32) (main_arg13 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x1 .f32) (main_arg7 : FVec F S1 .f32) (main_arg8 : FVec F S512x512 .f32) (main_arg9 : FVec F S512 .f32) (main_arg10 : FVec F S512x512 .f32) (main_arg11 : FVec F S512 .f32) (main_arg12 : FVec F S512x1 .f32) (main_arg13 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x512 .f32) (main_arg1 : FVec F S32768x512 .f32) (main_arg2 : FVec F S1024x512 .f32) (main_arg3 : FVec F S512 .f32) (main_arg4 : FVec F S512x512 .f32) (main_arg5 : FVec F S512 .f32) (main_arg6 : FVec F S512x1 .f32) (main_arg7 : FVec F S1 .f32) (main_arg8 : FVec F S512x512 .f32) (main_arg9 : FVec F S512 .f32) (main_arg10 : FVec F S512x512 .f32) (main_arg11 : FVec F S512 .f32) (main_arg12 : FVec F S512x1 .f32) (main_arg13 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S512x1024 : Shape := ⟨2, ![512, 1024]⟩
abbrev S1x512 : Shape := ⟨2, ![1, 512]⟩
abbrev S1x1 : Shape := ⟨2, ![1, 1]⟩
abbrev S32768x2 : Shape := ⟨2, ![32768, 2]⟩
abbrev S1024x2 : Shape := ⟨2, ![1024, 2]⟩
abbrev S1024x1024 : Shape := ⟨2, ![1024, 1024]⟩
abbrev S1024 : Shape := ⟨1, ![1024]⟩
abbrev S1024x1 : Shape := ⟨2, ![1024, 1]⟩
abbrev S32768x1 : Shape := ⟨2, ![32768, 1]⟩

abbrev nBuf : Space → Nat
  | .hbm => 32
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S512x512, .f32⟩
  | .hbm, ⟨15, _⟩ => ⟨S512x512, .f32⟩
  | .hbm, ⟨16, _⟩ => ⟨S512x1024, .f32⟩
  | .hbm, ⟨17, _⟩ => ⟨S512x1024, .bf16⟩
  | .hbm, ⟨18, _⟩ => ⟨S512x512, .bf16⟩
  | .hbm, ⟨19, _⟩ => ⟨S512x512, .bf16⟩
  | .hbm, ⟨20, _⟩ => ⟨S512x512, .bf16⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x1, .f32⟩
  | .hbm, ⟨28, _⟩ => ⟨S1x1, .f32⟩
  | .hbm, ⟨29, _⟩ => ⟨S32768x2, .f32⟩
  | .hbm, ⟨30, _⟩ => ⟨S32768x1, .f32⟩
  | .hbm, ⟨31, _⟩ => ⟨S32768x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1024, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S1x1, .f32⟩
  | .local _ .vmem, ⟨14, _⟩ => ⟨S1x512, .f32⟩
  | .local _ .vmem, ⟨15, _⟩ => ⟨S1x1, .f32⟩
  | .local _ .vmem, ⟨16, _⟩ => ⟨S1024x2, .f32⟩
  | .local _ .vmem, ⟨17, _⟩ => ⟨S1024x2, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S1024x512_S512x512_0_0 : S1024x512.Slices ![0, 0] S512x512
  slices_S1024x512_S512x512_512_0 : S1024x512.Slices ![512, 0] S512x512
  concatenates_S512x512_S512x512_S512x1024_d1 : Shape.Concatenates [S512x512, S512x512] S512x1024 1
  bitsLt_bf16_f32 : FTy.bits .bf16 < FTy.bits .f32
  shapeCasts_S512_S1x512 : S512.ShapeCasts S1x512
  shapeCasts_S512x1_S1x512 : S512x1.ShapeCasts S1x512
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S1024x1024_o0_0_S1024x512 : S1024x1024.Slices ![0, 0] S1024x512
  slices_S1024x1024_o0_512_S1024x512 : S1024x1024.Slices ![0, 512] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  concatenates_S1024x1_S1024x1_S1024x2_d1 : Shape.Concatenates [S1024x1, S1024x1] S1024x2 1
  inb_S1024x2_S1024x2_0_0 : ∀ a, (![0, 0] : Fin 2 → Nat) a + S1024x2.size a ≤ S1024x2.size a
  h_S1024x2 : 0 < S1024x2.numel
  slices_S32768x2_S32768x1_0_0 : S32768x2.Slices ![0, 0] S32768x1
  slices_S32768x2_S32768x1_0_1 : S32768x2.Slices ![0, 1] S32768x1
  dot_S1024x512_S512x1024_S1024x1024_1_0_0_1_n_n_wf : DotDims.WF S1024x512 S512x1024 S1024x1024 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x2.size a ≤ S32768x2.size a
  hwx0_14 : ∀ i : grid0.Coords, EltTy.bits .f32 = 32 ∨ (Rect.block (s := S32768x2) S1024x2.size (cc0_transform_14 i) (hinb0_14 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1024x2.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S32768x1024 : Shape := ⟨2, ![32768, 1024]⟩
abbrev S1x512 : Shape := ⟨2, ![1, 512]⟩
abbrev S_ : Shape := ⟨0, ![]⟩
abbrev S32768x1 : Shape := ⟨2, ![32768, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S32768x1024, .f32⟩
  | .hbm, ⟨15, _⟩ => ⟨S32768x512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S1x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x1, .f32⟩
  | .hbm, ⟨30, _⟩ => ⟨S1x1, .f32⟩
  | .hbm, ⟨31, _⟩ => ⟨S32768x1, .f32⟩
  | .hbm, ⟨32, _⟩ => ⟨S32768x1, .f32⟩
  | .hbm, ⟨33, _⟩ => ⟨S32768x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S1x512, .f32⟩
  | .hbm, ⟨42, _⟩ => ⟨S32768x512, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | .hbm, ⟨47, _⟩ => ⟨S32768x1, .f32⟩
  | .hbm, ⟨48, _⟩ => ⟨S1x1, .f32⟩
  | .hbm, ⟨49, _⟩ => ⟨S32768x1, .f32⟩
  | .hbm, ⟨50, _⟩ => ⟨S32768x1, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_cst : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call2_cst : Ref sig .tc := ⟨.hbm, 37, rfl⟩
abbrev main_call2_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call3_cst : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  concatenates_S32768x512_S32768x512_S32768x1024_d1 : Shape.Concatenates [S32768x512, S32768x512] S32768x1024 1
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x1024_S1024x512_S32768x512_1_0_0_1_n_n_wf : DotDims.WF S32768x1024 S1024x512 S32768x512 [1] [0] [0] [1] [] []
  dot_S32768x512_S512x512_S32768x512_1_0_0_1_n_n_wf : DotDims.WF S32768x512 S512x512 S32768x512 [1] [0] [0] [1] [] []
  dot_S32768x512_S512x1_S32768x1_1_0_0_1_n_n_wf : DotDims.WF S32768x512 S512x1 S32768x1 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1_S32768x1_1_0_0_1_n_n : DotDims S32768x512 S512x1 S32768x1 where
  lhsContracting := [1]
  rhsContracting := [0]
  lhsNonContracting := [0]
  rhsNonContracting := [1]
  lhsBatch := []
  rhsBatch := []
  wf := dot_S32768x512_S512x1_S32768x1_1_0_0_1_n_n_wf

class Facts : Prop extends Facts₀ where

variable [Facts]
-- ==== Proof.HeadSpec.lean ====
/-
  One scoring head of the critic, as a function of one row of inputs.

  A head is a three-layer perceptron: an affine map, a rectifier, a second affine map, a second rectifier, and a final
  affine map onto a single number. It is stated here for ONE input row and from the first layer's products onwards:
  `z j` is the first layer's weighted sum for hidden unit `j` before its bias is added, however that sum was obtained
  (one long contraction, or two shorter ones added together). Then

      head z b₁ W₂ b₂ w₃ b₃ = (∑ k, relu ((∑ j, relu (z j + b₁ j) · W₂ j k) + b₂ k) · w₃ k) + b₃,

  with `relu x = max x 0`, the zero being the all-zero single-precision word read at the ideal values. Everything is
  over the extended reals; only commutativity and associativity of addition are ever used on it, so no finiteness of
  the inputs is needed anywhere.
-/
import Idealize.ShloMosaic.PureOps.Ideal

noncomputable section

namespace Cert.Critic

open Idealize.ShloMosaic

/-- The rectifier at the ideal values: the larger of `x` and the value of the all-zero word. -/
def relu (x : EReal) : EReal := max x (Ideal.ofBits .f32 0x00000000#32)

/-- A head's output for one row, from the first layer's weighted sums `z` (bias not yet added). -/
def head {d : ℕ} (z : Fin d → EReal) (b₁ : Fin d → EReal) (W₂ : Fin d → Fin d → EReal) (b₂ : Fin d → EReal)
    (w₃ : Fin d → EReal) (b₃ : EReal) : EReal :=
  (∑ k : Fin d, relu ((∑ j : Fin d, relu (z j + b₁ j) * W₂ j k) + b₂ k) * w₃ k) + b₃

/-- Two heads agree when their first-layer sums, biases and weights agree entry by entry. -/
theorem head_congr {d : ℕ} {z z' b₁ b₁' : Fin d → EReal} {W₂ W₂' : Fin d → Fin d → EReal} {b₂ b₂' w₃ w₃' : Fin d → EReal}
    {b₃ b₃' : EReal} (hz : ∀ j, z j = z' j) (h1 : ∀ j, b₁ j = b₁' j) (hW : ∀ j k, W₂ j k = W₂' j k)
    (h2 : ∀ k, b₂ k = b₂' k) (h3 : ∀ k, w₃ k = w₃' k) (hb : b₃ = b₃') :
    head z b₁ W₂ b₂ w₃ b₃ = head z' b₁' W₂' b₂' w₃' b₃' := by
  have ez : z = z' := funext hz
  have e1 : b₁ = b₁' := funext h1
  have eW : W₂ = W₂' := funext fun j => funext (hW j)
  have e2 : b₂ = b₂' := funext h2
  have e3 : w₃ = w₃' := funext h3
  rw [ez, e1, eW, e2, e3, hb]

end Cert.Critic

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.LibLaneSum.lean ====
/-
  Three readings at an index, for any extents, at the ideal values.

  * A sum along the lanes of an `[a, b]` array (the second axis dropped, starting from the zero word) read at row `p`
    is the sum over `k < b` of the array at `(p, k)`.
  * An `[a]` array viewed as a column `[a, 1]` reads, at `(p, u)`, the array at `p`; a column `[a, 1]` viewed as `[a]`
    reads, at `p`, the column at `(p, 0)`. (Both casts keep the row-major position.)
  * A load of `n` consecutive columns from column `c` of an `[a, w]` array, all rows, read at `(p, k)` is the array at
    `(p, c + k)`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Lib.LaneSum

open Idealize.ShloMosaic Idealize.ShloMosaic.ValueIdx

/-- A lane sum from the zero word, read at row `p`: the sum over the lanes of the entries of that row. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

variable {α : Type}

/-- An `[a]` array as a column `[a, 1]`, at `(p, u)`: the array at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` as an `[a]` array, at `p`: the column at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A load of the `n` columns from column `c`, every row, of an `[a, w]` array, at `(p, k)`: the array at `(p, c + k)`. -/
theorem ld_cols_apply {Val : EltTy → Type} {e : EltTy} {a w n : ℕ} (x : (⟨2, ![a, w]⟩ : Shape).Idx → Val e) (c : ℕ)
    (inb : ∀ d, (![0, c] : Fin 2 → ℕ) d + (![a, n] : Fin 2 → ℕ) d ≤ (⟨2, ![a, w]⟩ : Shape).size d)
    (p : Fin a) (k : Fin n) (hk : c + k.val < w) :
    View.ld x (Rect.unit (s := ⟨2, ![a, w]⟩) ![0, c] ![a, n] inb) (ix2 p k) = x (ix2 p ⟨c + k.val, hk⟩) := by
  show x ((Rect.unit (s := ⟨2, ![a, w]⟩) ![0, c] ![a, n] inb).idx (ix2 p k)) = _
  refine congrArg x (funext fun d => Fin.ext ?_)
  match d with
  | ⟨0, _⟩ => show 0 + 1 * p.val = p.val; omega
  | ⟨1, _⟩ => show c + 1 * k.val = c + k.val; omega

end Cert.Lib.LaneSum

end
-- ==== Proof.KernelPayload.lean ====
/-
  What the kernel body computes for one block of 1024 rows, read entry by entry at the ideal values.

  The body multiplies the block of states by the two first-layer weight matrices laid side by side (one product of
  width 1024), cuts the product back into its two halves, adds to the first half the block of actions times the
  remaining first-layer weights, and then runs the two heads: bias, rectifier, second product, bias, rectifier, and a
  final weighted sum along the lanes plus a bias. The two results are laid side by side as the two columns of the
  block it stores. Read at row `p`, column 0 is the first head of that row and column 1 the second.
-/
import proofs.«166006_j74783970557989_2_alg».proof.Proof.Gen.KernelIdeal.Skeleton
import proofs.«166006_j74783970557989_2_alg».proof.Proof.HeadSpec
import proofs.«166006_j74783970557989_2_alg».proof.Proof.LibMatSum
import proofs.«166006_j74783970557989_2_alg».proof.Proof.LibLaneSum
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen Cert.Critic

variable [Facts]

/-- The wide first-layer product at `(p, c)`: the row of states against column `c` of the side-by-side weights. -/
theorem fused_entry (x0 : Vec Ideal S1024x512 .f32) (x2 : Vec Ideal S512x1024 .bf16) (p : Fin 1024) (c : Fin 1024) :
    k0_pay2 (F := Ideal) x0 x2 (ix2 p c) = ∑ i : Fin 512, x0 (ix2 p i) * x2 (ix2 i c) := by
  unfold k0_pay2
  refine (MatSum.matmul_zero_entry _ none _ _ p c).trans ?_
  simp only [shapeCast_self]
  rfl

/-- The second head's first hidden layer at `(p, j)`: the right half of the wide product, plus its bias, rectified. -/
theorem hiddenV_entry (x0 : Vec Ideal S1024x512 .f32) (x2 : Vec Ideal S512x1024 .bf16) (x5 : Vec Ideal S1x512 .f32)
    (p : Fin 1024) (j : Fin 512) :
    k0_pay3 (F := Ideal) x0 x2 x5 (ix2 p j)
      = relu ((∑ i : Fin 512, x0 (ix2 p i) * x2 (ix2 i ⟨512 + j.val, by have := j.isLt; omega⟩)) + x5 (ix2 (0 : Fin 1) j)) := by
  unfold k0_pay3
  simp only [shapeCast_self]
  rw [maximumf_apply, addf_apply, slice2_axis1_eq, broadcastTo_1b_ab_apply, fused_entry]
  rfl

/-- A block product of width 512 into the zero accumulator at `(p, k)`: the row of the left operand against the
    column of the right. -/
theorem prod512_entry {φ₁ φ₂ : FTy} (A : FVec Ideal S1024x512 φ₁) (B : FVec Ideal S512x512 φ₂) (p : Fin 1024) (k : Fin 512) :
    matmul dot_S1024x512_S512x512_S1024x512_1_0_0_1_n_n none A B (constant S1024x512 .f32 0x00000000#32) (ix2 p k)
      = ∑ j : Fin 512, A (ix2 p j) * B (ix2 j k) :=
  MatSum.matmul_zero_entry _ none A B p k

/-- The first head's second layer before its rectifier, at `(p, k)`: the rectified first layer — the left half of the
    wide product plus the actions' product plus the bias — against column `k` of the second weights, plus the bias. -/
theorem secondQ_entry (x0 x1 : Vec Ideal S1024x512 .f32) (x2 : Vec Ideal S512x1024 .bf16) (x3 : Vec Ideal S512x512 .bf16)
    (x4 : Vec Ideal S1x512 .f32) (x6 : Vec Ideal S512x512 .bf16) (x7 : Vec Ideal S1x512 .f32) (p : Fin 1024) (k : Fin 512) :
    k0_pay5 (F := Ideal) x0 x1 x2 x3 x4 x6 x7 (ix2 p k)
      = (∑ j : Fin 512, relu (((∑ i : Fin 512, x0 (ix2 p i) * x2 (ix2 i ⟨j.val, by have := j.isLt; omega⟩))
            + ∑ i : Fin 512, x1 (ix2 p i) * x3 (ix2 i j)) + x4 (ix2 (0 : Fin 1) j)) * x6 (ix2 j k))
          + x7 (ix2 (0 : Fin 1) k) := by
  unfold k0_pay5
  simp only [shapeCast_self]
  rw [addf_apply, broadcastTo_1b_ab_apply, prod512_entry]
  refine congrArg (· + x7 (ix2 (0 : Fin 1) k)) (Finset.sum_congr rfl fun j _ => ?_)
  rw [truncf_apply, maximumf_apply, addf_apply, addf_apply,
    slice2_axis1_apply (n0 := 1024) (n1 := 1024) (m := 512) 0 _ _ p j ⟨j.val, by have := j.isLt; omega⟩ (Nat.zero_add _).symm,
    broadcastTo_1b_ab_apply, fused_entry, prod512_entry]
  rfl

/-- Column 0 of the stored block at row `p`: the lane sum of the rectified second layer of the first head against the
    last weights, plus the last bias (`z` is the rectifier's zero). -/
theorem outQ_entry (v24 : FVec Ideal S1024x512 .f32) (v28 : FVec Ideal S512x512 .bf16) (v34 : FVec Ideal S1024x512 .f32)
    (z : Ideal .f32) (v39 v45 v47 : Vec Ideal S1x512 .f32) (v53 v61 : Vec Ideal S1x1 .f32) (p : Fin 1024) :
    k0_pay1 (F := Ideal) v24 v28 v34 z v39 v45 v47 v53 v61 (ix2 p (0 : Fin 2))
      = (∑ k : Fin 512, max (v34 (ix2 p k)) z * v45 (ix2 (0 : Fin 1) k)) + v53 (ix2 (0 : Fin 1) (0 : Fin 1)) := by
  unfold k0_pay1
  simp only [shapeCast_self]
  refine (concatenate_pair_apply_left (t := S1024x2) (s₁ := S1024x1) (s₂ := S1024x1) _ _ _ _ (ix2 p (0 : Fin 2)) rfl (ix2 p (0 : Fin 1)) (fun b => ?_)).trans ?_
  · match b with
    | ⟨0, _⟩ => rfl
    | ⟨1, _⟩ => rfl
  rw [addf_apply, Cert.Lib.LaneSum.shapeCast_a_a1_apply, broadcastTo_1b_ab_apply]
  refine congrArg (· + v53 (ix2 (0 : Fin 1) (0 : Fin 1)))
    ((Cert.Lib.LaneSum.laneSum_apply _ _ _ _ p).trans (Finset.sum_congr rfl fun k _ => ?_))
  rw [mulf_apply, maximumf_apply, broadcastTo_1b_ab_apply]
  rfl

/-- Column 1 of the stored block at row `p`: the second head from its first hidden layer `v24` on — second product,
    bias, rectifier, lane sum against the last weights, last bias. -/
theorem outV_entry (v24 : FVec Ideal S1024x512 .f32) (v28 : FVec Ideal S512x512 .bf16) (v34 : FVec Ideal S1024x512 .f32)
    (z : Ideal .f32) (v39 v45 v47 : Vec Ideal S1x512 .f32) (v53 v61 : Vec Ideal S1x1 .f32) (p : Fin 1024) :
    k0_pay1 (F := Ideal) v24 v28 v34 z v39 v45 v47 v53 v61 (ix2 p (1 : Fin 2))
      = (∑ k : Fin 512, relu ((∑ j : Fin 512, v24 (ix2 p j) * v28 (ix2 j k)) + v39 (ix2 (0 : Fin 1) k)) * v47 (ix2 (0 : Fin 1) k))
          + v61 (ix2 (0 : Fin 1) (0 : Fin 1)) := by
  unfold k0_pay1
  simp only [shapeCast_self]
  refine (concatenate_pair_apply_right (t := S1024x2) (s₁ := S1024x1) (s₂ := S1024x1) _ _ _ _ (ix2 p (1 : Fin 2)) rfl rfl (ix2 p (0 : Fin 1)) (fun b hb => ?_) ?_).trans ?_
  · match b with
    | ⟨0, _⟩ => rfl
    | ⟨1, _⟩ => exact absurd rfl hb
  · rfl
  rw [addf_apply, Cert.Lib.LaneSum.shapeCast_a_a1_apply, broadcastTo_1b_ab_apply]
  refine congrArg (· + v61 (ix2 (0 : Fin 1) (0 : Fin 1)))
    ((Cert.Lib.LaneSum.laneSum_apply _ _ _ _ p).trans (Finset.sum_congr rfl fun k _ => ?_))
  rw [mulf_apply, maximumf_apply, addf_apply, prod512_entry, broadcastTo_1b_ab_apply, broadcastTo_1b_ab_apply]
  rfl

/-- THE BLOCK, column 0: at row `p` the body stores the first head of that row — its first layer the sum of the
    states' product with the left half of the side-by-side weights and the actions' product. -/
theorem blockQ (x0 x1 : Vec Ideal S1024x512 .f32) (x2 : Vec Ideal S512x1024 .bf16) (x3 : Vec Ideal S512x512 .bf16)
    (x4 x5 : Vec Ideal S1x512 .f32) (x6 : Vec Ideal S512x512 .bf16) (x7 : Vec Ideal S1x512 .f32) (x8 : Vec Ideal S512x512 .bf16)
    (x9 x10 : Vec Ideal S1x512 .f32) (x11 : Vec Ideal S1x1 .f32) (x12 : Vec Ideal S1x512 .f32) (x13 : Vec Ideal S1x1 .f32)
    (p : Fin 1024) :
    k0_pay1 (F := Ideal) (k0_pay3 x0 x2 x5) (k0_pay4 x8) (k0_pay5 x0 x1 x2 x3 x4 x6 x7) (Scalar.ofBits .f32 0x00000000#32)
        x9 x10 x12 x11 x13 (ix2 p (0 : Fin 2))
      = head (fun j : Fin 512 => (∑ i : Fin 512, x0 (ix2 p i) * x2 (ix2 i ⟨j.val, by have := j.isLt; omega⟩))
            + ∑ i : Fin 512, x1 (ix2 p i) * x3 (ix2 i j))
          (fun j => x4 (ix2 (0 : Fin 1) j)) (fun j k => x6 (ix2 j k)) (fun k => x7 (ix2 (0 : Fin 1) k))
          (fun k => x10 (ix2 (0 : Fin 1) k)) (x11 (ix2 (0 : Fin 1) (0 : Fin 1))) := by
  rw [outQ_entry]
  unfold head
  refine congrArg (· + x11 (ix2 (0 : Fin 1) (0 : Fin 1))) (Finset.sum_congr rfl fun k _ => ?_)
  rw [secondQ_entry]
  rfl

/-- THE BLOCK, column 1: at row `p` the body stores the second head of that row — its first layer the states' product
    with the right half of the side-by-side weights. -/
theorem blockV (x0 x1 : Vec Ideal S1024x512 .f32) (x2 : Vec Ideal S512x1024 .bf16) (x3 : Vec Ideal S512x512 .bf16)
    (x4 x5 : Vec Ideal S1x512 .f32) (x6 : Vec Ideal S512x512 .bf16) (x7 : Vec Ideal S1x512 .f32) (x8 : Vec Ideal S512x512 .bf16)
    (x9 x10 : Vec Ideal S1x512 .f32) (x11 : Vec Ideal S1x1 .f32) (x12 : Vec Ideal S1x512 .f32) (x13 : Vec Ideal S1x1 .f32)
    (p : Fin 1024) :
    k0_pay1 (F := Ideal) (k0_pay3 x0 x2 x5) (k0_pay4 x8) (k0_pay5 x0 x1 x2 x3 x4 x6 x7) (Scalar.ofBits .f32 0x00000000#32)
        x9 x10 x12 x11 x13 (ix2 p (1 : Fin 2))
      = head (fun j : Fin 512 => ∑ i : Fin 512, x0 (ix2 p i) * x2 (ix2 i ⟨512 + j.val, by have := j.isLt; omega⟩))
          (fun j => x5 (ix2 (0 : Fin 1) j)) (fun j k => x8 (ix2 j k)) (fun k => x9 (ix2 (0 : Fin 1) k))
          (fun k => x12 (ix2 (0 : Fin 1) k)) (x13 (ix2 (0 : Fin 1) (0 : Fin 1))) := by
  rw [outV_entry]
  unfold head
  refine congrArg (· + x13 (ix2 (0 : Fin 1) (0 : Fin 1))) (Finset.sum_congr rfl fun k _ => ?_)
  refine congrArg (fun s => relu (s + x9 (ix2 (0 : Fin 1) k)) * x12 (ix2 (0 : Fin 1) k)) (Finset.sum_congr rfl fun j _ => ?_)
  rw [hiddenV_entry]
  unfold k0_pay4
  rw [shapeCast_self]

end Cert.KernelIdeal.Payload

end
-- ==== Proof.KernelBlocks.lean ====
/-
  From the blocks the grid points write back to the whole result array.

  The grid has 32 points. Point `t` is handed rows `1024 t … 1024 t + 1023` of the states and of the actions and the
  whole of every weight and bias array, and writes back rows `1024 t … 1024 t + 1023` of the two-column result. So what
  it writes at its row `p` is the two heads of row `1024 t + p` of the inputs, and the 32 blocks together fill the
  result array: column 0 of row `r` is the first head of row `r`, column 1 the second.
-/
import proofs.«166006_j74783970557989_2_alg».proof.Proof.Gen.KernelIdeal.Frame
import proofs.«166006_j74783970557989_2_alg».proof.Proof.KernelPayload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Critic Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- The states', the actions' and the result's blocks move down one block of rows per point. -/
theorem moving : ∀ t : Fin cfg0.N, win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

/-! Every weight and bias window stays at its array's origin. -/
theorem fixed2 : ∀ t : Fin cfg0.N, win0_2.index t (0 : Fin 2) = 0 ∧ win0_2.index t (1 : Fin 2) = 0 :=
  (by decide +kernel : ∀ t : Fin grid0.N, _)
theorem fixed3 : ∀ t : Fin cfg0.N, win0_3.index t (0 : Fin 2) = 0 ∧ win0_3.index t (1 : Fin 2) = 0 :=
  (by decide +kernel : ∀ t : Fin grid0.N, _)
theorem fixed4 : ∀ t : Fin cfg0.N, win0_4.index t (0 : Fin 2) = 0 ∧ win0_4.index t (1 : Fin 2) = 0 :=
  (by decide +kernel : ∀ t : Fin grid0.N, _)
theorem fixed5 : ∀ t : Fin cfg0.N, win0_5.index t (0 : Fin 2) = 0 ∧ win0_5.index t (1 : Fin 2) = 0 :=
  (by decide +kernel : ∀ t : Fin grid0.N, _)
theorem fixed6 : ∀ t : Fin cfg0.N, win0_6.index t (0 : Fin 2) = 0 ∧ win0_6.index t (1 : Fin 2) = 0 :=
  (by decide +kernel : ∀ t : Fin grid0.N, _)
theorem fixed7 : ∀ t : Fin cfg0.N, win0_7.index t (0 : Fin 2) = 0 ∧ win0_7.index t (1 : Fin 2) = 0 :=
  (by decide +kernel : ∀ t : Fin grid0.N, _)
theorem fixed8 : ∀ t : Fin cfg0.N, win0_8.index t (0 : Fin 2) = 0 ∧ win0_8.index t (1 : Fin 2) = 0 :=
  (by decide +kernel : ∀ t : Fin grid0.N, _)
theorem fixed9 : ∀ t : Fin cfg0.N, win0_9.index t (0 : Fin 2) = 0 ∧ win0_9.index t (1 : Fin 2) = 0 :=
  (by decide +kernel : ∀ t : Fin grid0.N, _)
theorem fixed10 : ∀ t : Fin cfg0.N, win0_10.index t (0 : Fin 2) = 0 ∧ win0_10.index t (1 : Fin 2) = 0 :=
  (by decide +kernel : ∀ t : Fin grid0.N, _)
theorem fixed11 : ∀ t : Fin cfg0.N, win0_11.index t (0 : Fin 2) = 0 ∧ win0_11.index t (1 : Fin 2) = 0 :=
  (by decide +kernel : ∀ t : Fin grid0.N, _)
theorem fixed12 : ∀ t : Fin cfg0.N, win0_12.index t (0 : Fin 2) = 0 ∧ win0_12.index t (1 : Fin 2) = 0 :=
  (by decide +kernel : ∀ t : Fin grid0.N, _)
theorem fixed13 : ∀ t : Fin cfg0.N, win0_13.index t (0 : Fin 2) = 0 ∧ win0_13.index t (1 : Fin 2) = 0 :=
  (by decide +kernel : ∀ t : Fin grid0.N, _)

/-- The states' block at point `t` is rows `1024 t …` of the states. -/
theorem rows0 (c : Dev nD) (t : Fin cfg0.N) (x : S1024x512.Idx) (k : S32768x512.Idx)
    (hk0 : (k 0).val = t.val * 1024 + (x 0).val) (hk1 : (k 1).val = (x 1).val) :
    (iblk m c 0 t : Vec Ideal S1024x512 .f32) x = (V m c main_arg0 : S32768x512.Idx → Elt Ideal .f32) k := by
  obtain ⟨h0, h1, -⟩ := moving t
  unfold iblk
  rw [View.read_apply]
  show V m c main_arg0 _ = V m c main_arg0 _
  congr 1
  funext a
  apply Fin.ext
  match a with
  | ⟨0, _⟩ => show win0_0.index t 0 * 1024 + 1 * (x 0).val = (k 0).val; rw [h0, hk0]; omega
  | ⟨1, _⟩ => show win0_0.index t 1 * 512 + 1 * (x 1).val = (k 1).val; rw [h1, hk1]; omega

/-- The actions' block at point `t` is rows `1024 t …` of the actions. -/
theorem rows1 (c : Dev nD) (t : Fin cfg0.N) (x : S1024x512.Idx) (k : S32768x512.Idx)
    (hk0 : (k 0).val = t.val * 1024 + (x 0).val) (hk1 : (k 1).val = (x 1).val) :
    (iblk m c 1 t : Vec Ideal S1024x512 .f32) x = (V m c main_arg1 : S32768x512.Idx → Elt Ideal .f32) k := by
  obtain ⟨-, -, h0, h1, -⟩ := moving t
  unfold iblk
  rw [View.read_apply]
  show V m c main_arg1 _ = V m c main_arg1 _
  congr 1
  funext a
  apply Fin.ext
  match a with
  | ⟨0, _⟩ => show win0_1.index t 0 * 1024 + 1 * (x 0).val = (k 0).val; rw [h0, hk0]; omega
  | ⟨1, _⟩ => show win0_1.index t 1 * 512 + 1 * (x 1).val = (k 1).val; rw [h1, hk1]; omega

/-- Window 2's block is its whole array at every point. -/
theorem whole2 (c : Dev nD) (t : Fin cfg0.N) (y : S512x1024.Idx) :
    (iblk m c 2 t : Vec Ideal S512x1024 .bf16) y = (V m c main_v3 : S512x1024.Idx → Elt Ideal .bf16) y := by
  have hi : win0_2.index t (0 : Fin 2) = 0 ∧ win0_2.index t (1 : Fin 2) = 0 := fixed2 t
  unfold iblk
  rw [View.read_apply]
  show V m c main_v3 _ = V m c main_v3 _
  congr 1
  funext a
  apply Fin.ext
  match a with
  | ⟨0, _⟩ => show win0_2.index t 0 * 512 + 1 * (y 0).val = (y 0).val; rw [hi.1]; omega
  | ⟨1, _⟩ => show win0_2.index t 1 * 1024 + 1 * (y 1).val = (y 1).val; rw [hi.2]; omega

/-- Window 3's block is its whole array at every point. -/
theorem whole3 (c : Dev nD) (t : Fin cfg0.N) (y : S512x512.Idx) :
    (iblk m c 3 t : Vec Ideal S512x512 .bf16) y = (V m c main_v4 : S512x512.Idx → Elt Ideal .bf16) y := by
  have hi : win0_3.index t (0 : Fin 2) = 0 ∧ win0_3.index t (1 : Fin 2) = 0 := fixed3 t
  unfold iblk
  rw [View.read_apply]
  show V m c main_v4 _ = V m c main_v4 _
  congr 1
  funext a
  apply Fin.ext
  match a with
  | ⟨0, _⟩ => show win0_3.index t 0 * 512 + 1 * (y 0).val = (y 0).val; rw [hi.1]; omega
  | ⟨1, _⟩ => show win0_3.index t 1 * 512 + 1 * (y 1).val = (y 1).val; rw [hi.2]; omega

/-- Window 4's block is its whole array at every point. -/
theorem whole4 (c : Dev nD) (t : Fin cfg0.N) (y : S1x512.Idx) :
    (iblk m c 4 t : Vec Ideal S1x512 .f32) y = (V m c main_v7 : S1x512.Idx → Elt Ideal .f32) y := by
  have hi : win0_4.index t (0 : Fin 2) = 0 ∧ win0_4.index t (1 : Fin 2) = 0 := fixed4 t
  unfold iblk
  rw [View.read_apply]
  show V m c main_v7 _ = V m c main_v7 _
  congr 1
  funext a
  apply Fin.ext
  match a with
  | ⟨0, _⟩ => show win0_4.index t 0 * 1 + 1 * (y 0).val = (y 0).val; rw [hi.1]; omega
  | ⟨1, _⟩ => show win0_4.index t 1 * 512 + 1 * (y 1).val = (y 1).val; rw [hi.2]; omega

/-- Window 5's block is its whole array at every point. -/
theorem whole5 (c : Dev nD) (t : Fin cfg0.N) (y : S1x512.Idx) :
    (iblk m c 5 t : Vec Ideal S1x512 .f32) y = (V m c main_v8 : S1x512.Idx → Elt Ideal .f32) y := by
  have hi : win0_5.index t (0 : Fin 2) = 0 ∧ win0_5.index t (1 : Fin 2) = 0 := fixed5 t
  unfold iblk
  rw [View.read_apply]
  show V m c main_v8 _ = V m c main_v8 _
  congr 1
  funext a
  apply Fin.ext
  match a with
  | ⟨0, _⟩ => show win0_5.index t 0 * 1 + 1 * (y 0).val = (y 0).val; rw [hi.1]; omega
  | ⟨1, _⟩ => show win0_5.index t 1 * 512 + 1 * (y 1).val = (y 1).val; rw [hi.2]; omega

/-- Window 6's block is its whole array at every point. -/
theorem whole6 (c : Dev nD) (t : Fin cfg0.N) (y : S512x512.Idx) :
    (iblk m c 6 t : Vec Ideal S512x512 .bf16) y = (V m c main_v5 : S512x512.Idx → Elt Ideal .bf16) y := by
  have hi : win0_6.index t (0 : Fin 2) = 0 ∧ win0_6.index t (1 : Fin 2) = 0 := fixed6 t
  unfold iblk
  rw [View.read_apply]
  show V m c main_v5 _ = V m c main_v5 _
  congr 1
  funext a
  apply Fin.ext
  match a with
  | ⟨0, _⟩ => show win0_6.index t 0 * 512 + 1 * (y 0).val = (y 0).val; rw [hi.1]; omega
  | ⟨1, _⟩ => show win0_6.index t 1 * 512 + 1 * (y 1).val = (y 1).val; rw [hi.2]; omega

/-- Window 7's block is its whole array at every point. -/
theorem whole7 (c : Dev nD) (t : Fin cfg0.N) (y : S1x512.Idx) :
    (iblk m c 7 t : Vec Ideal S1x512 .f32) y = (V m c main_v9 : S1x512.Idx → Elt Ideal .f32) y := by
  have hi : win0_7.index t (0 : Fin 2) = 0 ∧ win0_7.index t (1 : Fin 2) = 0 := fixed7 t
  unfold iblk
  rw [View.read_apply]
  show V m c main_v9 _ = V m c main_v9 _
  congr 1
  funext a
  apply Fin.ext
  match a with
  | ⟨0, _⟩ => show win0_7.index t 0 * 1 + 1 * (y 0).val = (y 0).val; rw [hi.1]; omega
  | ⟨1, _⟩ => show win0_7.index t 1 * 512 + 1 * (y 1).val = (y 1).val; rw [hi.2]; omega

/-- Window 8's block is its whole array at every point. -/
theorem whole8 (c : Dev nD) (t : Fin cfg0.N) (y : S512x512.Idx) :
    (iblk m c 8 t : Vec Ideal S512x512 .bf16) y = (V m c main_v6 : S512x512.Idx → Elt Ideal .bf16) y := by
  have hi : win0_8.index t (0 : Fin 2) = 0 ∧ win0_8.index t (1 : Fin 2) = 0 := fixed8 t
  unfold iblk
  rw [View.read_apply]
  show V m c main_v6 _ = V m c main_v6 _
  congr 1
  funext a
  apply Fin.ext
  match a with
  | ⟨0, _⟩ => show win0_8.index t 0 * 512 + 1 * (y 0).val = (y 0).val; rw [hi.1]; omega
  | ⟨1, _⟩ => show win0_8.index t 1 * 512 + 1 * (y 1).val = (y 1).val; rw [hi.2]; omega

/-- Window 9's block is its whole array at every point. -/
theorem whole9 (c : Dev nD) (t : Fin cfg0.N) (y : S1x512.Idx) :
    (iblk m c 9 t : Vec Ideal S1x512 .f32) y = (V m c main_v10 : S1x512.Idx → Elt Ideal .f32) y := by
  have hi : win0_9.index t (0 : Fin 2) = 0 ∧ win0_9.index t (1 : Fin 2) = 0 := fixed9 t
  unfold iblk
  rw [View.read_apply]
  show V m c main_v10 _ = V m c main_v10 _
  congr 1
  funext a
  apply Fin.ext
  match a with
  | ⟨0, _⟩ => show win0_9.index t 0 * 1 + 1 * (y 0).val = (y 0).val; rw [hi.1]; omega
  | ⟨1, _⟩ => show win0_9.index t 1 * 512 + 1 * (y 1).val = (y 1).val; rw [hi.2]; omega

/-- Window 10's block is its whole array at every point. -/
theorem whole10 (c : Dev nD) (t : Fin cfg0.N) (y : S1x512.Idx) :
    (iblk m c 10 t : Vec Ideal S1x512 .f32) y = (V m c main_v11 : S1x512.Idx → Elt Ideal .f32) y := by
  have hi : win0_10.index t (0 : Fin 2) = 0 ∧ win0_10.index t (1 : Fin 2) = 0 := fixed10 t
  unfold iblk
  rw [View.read_apply]
  show V m c main_v11 _ = V m c main_v11 _
  congr 1
  funext a
  apply Fin.ext
  match a with
  | ⟨0, _⟩ => show win0_10.index t 0 * 1 + 1 * (y 0).val = (y 0).val; rw [hi.1]; omega
  | ⟨1, _⟩ => show win0_10.index t 1 * 512 + 1 * (y 1).val = (y 1).val; rw [hi.2]; omega

/-- Window 11's block is its whole array at every point. -/
theorem whole11 (c : Dev nD) (t : Fin cfg0.N) (y : S1x1.Idx) :
    (iblk m c 11 t : Vec Ideal S1x1 .f32) y = (V m c main_v13 : S1x1.Idx → Elt Ideal .f32) y := by
  have hi : win0_11.index t (0 : Fin 2) = 0 ∧ win0_11.index t (1 : Fin 2) = 0 := fixed11 t
  unfold iblk
  rw [View.read_apply]
  show V m c main_v13 _ = V m c main_v13 _
  congr 1
  funext a
  apply Fin.ext
  match a with
  | ⟨0, _⟩ => show win0_11.index t 0 * 1 + 1 * (y 0).val = (y 0).val; rw [hi.1]; omega
  | ⟨1, _⟩ => show win0_11.index t 1 * 1 + 1 * (y 1).val = (y 1).val; rw [hi.2]; omega

/-- Window 12's block is its whole array at every point. -/
theorem whole12 (c : Dev nD) (t : Fin cfg0.N) (y : S1x512.Idx) :
    (iblk m c 12 t : Vec Ideal S1x512 .f32) y = (V m c main_v12 : S1x512.Idx → Elt Ideal .f32) y := by
  have hi : win0_12.index t (0 : Fin 2) = 0 ∧ win0_12.index t (1 : Fin 2) = 0 := fixed12 t
  unfold iblk
  rw [View.read_apply]
  show V m c main_v12 _ = V m c main_v12 _
  congr 1
  funext a
  apply Fin.ext
  match a with
  | ⟨0, _⟩ => show win0_12.index t 0 * 1 + 1 * (y 0).val = (y 0).val; rw [hi.1]; omega
  | ⟨1, _⟩ => show win0_12.index t 1 * 512 + 1 * (y 1).val = (y 1).val; rw [hi.2]; omega

/-- Window 13's block is its whole array at every point. -/
theorem whole13 (c : Dev nD) (t : Fin cfg0.N) (y : S1x1.Idx) :
    (iblk m c 13 t : Vec Ideal S1x1 .f32) y = (V m c main_v14 : S1x1.Idx → Elt Ideal .f32) y := by
  have hi : win0_13.index t (0 : Fin 2) = 0 ∧ win0_13.index t (1 : Fin 2) = 0 := fixed13 t
  unfold iblk
  rw [View.read_apply]
  show V m c main_v14 _ = V m c main_v14 _
  congr 1
  funext a
  apply Fin.ext
  match a with
  | ⟨0, _⟩ => show win0_13.index t 0 * 1 + 1 * (y 0).val = (y 0).val; rw [hi.1]; omega
  | ⟨1, _⟩ => show win0_13.index t 1 * 1 + 1 * (y 1).val = (y 1).val; rw [hi.2]; omega

/-! ## The result array as one function of the arrays the region finds -/

/-- Window 0's array as the region finds it, entry by entry an extended real. -/
abbrev ent0 (c : Dev nD) : S32768x512.Idx → EReal := V m c main_arg0
/-- Window 1's array as the region finds it, entry by entry an extended real. -/
abbrev ent1 (c : Dev nD) : S32768x512.Idx → EReal := V m c main_arg1
/-- Window 2's array as the region finds it, entry by entry an extended real. -/
abbrev ent2 (c : Dev nD) : S512x1024.Idx → EReal := V m c main_v3
/-- Window 3's array as the region finds it, entry by entry an extended real. -/
abbrev ent3 (c : Dev nD) : S512x512.Idx → EReal := V m c main_v4
/-- Window 4's array as the region finds it, entry by entry an extended real. -/
abbrev ent4 (c : Dev nD) : S1x512.Idx → EReal := V m c main_v7
/-- Window 5's array as the region finds it, entry by entry an extended real. -/
abbrev ent5 (c : Dev nD) : S1x512.Idx → EReal := V m c main_v8
/-- Window 6's array as the region finds it, entry by entry an extended real. -/
abbrev ent6 (c : Dev nD) : S512x512.Idx → EReal := V m c main_v5
/-- Window 7's array as the region finds it, entry by entry an extended real. -/
abbrev ent7 (c : Dev nD) : S1x512.Idx → EReal := V m c main_v9
/-- Window 8's array as the region finds it, entry by entry an extended real. -/
abbrev ent8 (c : Dev nD) : S512x512.Idx → EReal := V m c main_v6
/-- Window 9's array as the region finds it, entry by entry an extended real. -/
abbrev ent9 (c : Dev nD) : S1x512.Idx → EReal := V m c main_v10
/-- Window 10's array as the region finds it, entry by entry an extended real. -/
abbrev ent10 (c : Dev nD) : S1x512.Idx → EReal := V m c main_v11
/-- Window 11's array as the region finds it, entry by entry an extended real. -/
abbrev ent11 (c : Dev nD) : S1x1.Idx → EReal := V m c main_v13
/-- Window 12's array as the region finds it, entry by entry an extended real. -/
abbrev ent12 (c : Dev nD) : S1x512.Idx → EReal := V m c main_v12
/-- Window 13's array as the region finds it, entry by entry an extended real. -/
abbrev ent13 (c : Dev nD) : S1x1.Idx → EReal := V m c main_v14

/-- The first head of row `r`, from the arrays as the region finds them. -/
def qRow (c : Dev nD) (r : Fin 32768) : EReal :=
  head (fun j : Fin 512 =>
      (∑ i : Fin 512, ent0 m c (ix2 r i) * ent2 m c (ix2 i ⟨j.val, by have := j.isLt; omega⟩))
        + ∑ i : Fin 512, ent1 m c (ix2 r i) * ent3 m c (ix2 i j))
    (fun j => ent4 m c (ix2 (0 : Fin 1) j))
    (fun j k => ent6 m c (ix2 j k))
    (fun k => ent7 m c (ix2 (0 : Fin 1) k))
    (fun k => ent10 m c (ix2 (0 : Fin 1) k))
    (ent11 m c (ix2 (0 : Fin 1) (0 : Fin 1)))

/-- The second head of row `r`, from the arrays as the region finds them. -/
def vRow (c : Dev nD) (r : Fin 32768) : EReal :=
  head (fun j : Fin 512 =>
      ∑ i : Fin 512, ent0 m c (ix2 r i) * ent2 m c (ix2 i ⟨512 + j.val, by have := j.isLt; omega⟩))
    (fun j => ent5 m c (ix2 (0 : Fin 1) j))
    (fun j k => ent8 m c (ix2 j k))
    (fun k => ent9 m c (ix2 (0 : Fin 1) k))
    (fun k => ent12 m c (ix2 (0 : Fin 1) k))
    (ent13 m c (ix2 (0 : Fin 1) (0 : Fin 1)))

/-- The two-column result: column 0 the first head of the row, column 1 the second. -/
def outArr (c : Dev nD) : S32768x2.Idx → EReal := fun i =>
  if (i 1).val = 0 then qRow m c ⟨(i 0).val, idx2_lt0 i⟩ else vRow m c ⟨(i 0).val, idx2_lt0 i⟩

theorem outArr_q (c : Dev nD) (r : Fin 32768) : outArr m c (ix2 r (0 : Fin 2)) = qRow m c r := rfl
theorem outArr_v (c : Dev nD) (r : Fin 32768) : outArr m c (ix2 r (1 : Fin 2)) = vRow m c r := rfl

/-! ## What a point writes back -/

/-- WHAT POINT `t` WRITES BACK is block `t` of the result array. -/
theorem flushed_eq (c : Dev nD) (t : Fin cfg0.N) :
    (dats m 0 c).flushed 14 t = ((cfg0.win 14).blk t).view.read (Elt Ideal) (outArr m c) := by
  have hN : t.val < 32 := by have h1 := t.isLt; have h2 : cfg0.N = 32 := N_0; omega
  obtain ⟨-, -, -, -, h0, h1⟩ := moving t
  show (cfg0.win 14).cut (grid0.coords t) ((dats m 0 c).after 14 t) = _
  rw [after0_14]
  unfold out0_14
  rw [View.canon_unit_zero hz]
  simp only [View.ld_unit_zero (S := S1024x512) hz, View.ld_unit_zero (S := S512x1024) hz, View.ld_unit_zero (S := S512x512) hz,
    View.ld_unit_zero (S := S1x512) hz, View.ld_unit_zero (S := S1x1) hz]
  funext y
  obtain ⟨p, u, rfl⟩ : ∃ (p : Fin 1024) (u : Fin 2), y = ix2 p u := ⟨y 0, y 1, eq_ix2 y⟩
  have hemb : ((cfg0.win 14).blk t).view.emb (ix2 p u) = ix2 (⟨t.val * 1024 + p.val, by have := p.isLt; omega⟩ : Fin 32768) u := by
    funext a
    apply Fin.ext
    match a with
    | ⟨0, _⟩ => show win0_14.index t 0 * 1024 + 1 * p.val = t.val * 1024 + p.val; rw [h0]; omega
    | ⟨1, _⟩ => show win0_14.index t 1 * 2 + 1 * u.val = u.val; rw [h1]; omega
  show (k0_pay1 (F := Ideal) _ _ _ _ _ _ _ _ _ (ix2 p u) : EReal) = outArr m c (((cfg0.win 14).blk t).view.emb (ix2 p u))
  rw [hemb]
  match u with
  | ⟨0, _⟩ =>
    refine (Payload.blockQ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p).trans ?_
    show _ = qRow m c ⟨t.val * 1024 + p.val, _⟩
    unfold qRow
    refine head_congr (fun j => ?_) (fun j => whole4 m c t _) (fun j k => whole6 m c t _) (fun k => whole7 m c t _)
      (fun k => whole10 m c t _) (whole11 m c t _)
    exact congrArg₂ (· + ·)
      (Finset.sum_congr rfl fun i _ => congrArg₂ (· * ·) (rows0 m c t (ix2 p i) (ix2 ⟨t.val * 1024 + p.val, by have := p.isLt; omega⟩ i) rfl rfl) (whole2 m c t _))
      (Finset.sum_congr rfl fun i _ => congrArg₂ (· * ·) (rows1 m c t (ix2 p i) (ix2 ⟨t.val * 1024 + p.val, by have := p.isLt; omega⟩ i) rfl rfl) (whole3 m c t _))
  | ⟨1, _⟩ =>
    refine (Payload.blockV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p).trans ?_
    show _ = vRow m c ⟨t.val * 1024 + p.val, _⟩
    unfold vRow
    refine head_congr (fun j => ?_) (fun j => whole5 m c t _) (fun j k => whole8 m c t _) (fun k => whole9 m c t _)
      (fun k => whole12 m c t _) (whole13 m c t _)
    exact Finset.sum_congr rfl fun i _ => congrArg₂ (· * ·) (rows0 m c t (ix2 p i) (ix2 ⟨t.val * 1024 + p.val, by have := p.isLt; omega⟩ i) rfl rfl) (whole2 m c t _)

/-! ## The blocks fill the array -/

/-- An index of the result array is in point `t`'s block iff each coordinate is in the block's range on its axis. -/
theorem mem_blk (t : Fin cfg0.N) (i : S32768x2.Idx) :
    i ∈ ((cfg0.win 14).blk t).view.set ↔ ∀ a : Fin 2, win0_14.index t a * S1024x2.size a ≤ (i a).val
      ∧ (i a).val < win0_14.index t a * S1024x2.size a + S1024x2.size a := by
  show i ∈ ((View.whole main_v15).slice (win0_14.rect t)).set ↔ _
  rw [View.set_slice_whole, Rect.mem_set_unit]
  exact Iff.rfl

/-- Row `r` of the result is written back by point `r / 1024`. -/
theorem cover (i : S32768x2.Idx) : ∃ t : Fin cfg0.N, (cfg0.win 14).flush t = true ∧ i ∈ ((cfg0.win 14).blk t).view.set := by
  have hi0 : (i 0).val < 32768 := (i 0).isLt
  have hi1 : (i 1).val < 2 := (i 1).isLt
  have hN : cfg0.N = 32 := N_0
  refine ⟨⟨(i 0).val / 1024, by omega⟩, flush0_14 _, ?_⟩
  obtain ⟨-, -, -, -, h0, h1⟩ := moving ⟨(i 0).val / 1024, by omega⟩
  rw [mem_blk]
  intro a
  match a with
  | ⟨0, _⟩ =>
    show win0_14.index _ 0 * 1024 ≤ (i 0).val ∧ (i 0).val < win0_14.index _ 0 * 1024 + 1024
    rw [h0]
    show (i 0).val / 1024 * 1024 ≤ (i 0).val ∧ (i 0).val < (i 0).val / 1024 * 1024 + 1024
    omega
  | ⟨1, _⟩ =>
    show win0_14.index _ 1 * 2 ≤ (i 1).val ∧ (i 1).val < win0_14.index _ 1 * 2 + 2
    rw [h1]
    omega

/-- THE RESULT ARRAY after the run is `outArr`: the two heads of every row. -/
theorem final (c : Dev nD) : (dats m 0 c).arrAt 14 cfg0.N = outArr m c :=
  (dats m 0 c).arrAt_eq_of_cover 14 (outArr m c) (fun t _ => flushed_eq m c t) cover

end Cert.KernelIdeal.Blocks

end
-- ==== Proof.CriticSpec.lean ====
/-
  The critic's two results as functions of its fourteen argument arrays, row by row.

  For input row `r` the first result is the first head applied to the row of states followed by the row of actions:
  its first-layer weights have 1024 rows, the first 512 of which meet the states and the last 512 the actions, so the
  first layer's weighted sum is written as those two sums added. The second result is the second head applied to the
  row of states alone. Each result is a column of 32768 numbers.
-/
import Idealize.ShloMosaic.Lib.ValueIdx
import proofs.«166006_j74783970557989_2_alg».proof.Proof.HeadSpec

noncomputable section

namespace Cert.Critic

open Idealize.ShloMosaic Idealize.ShloMosaic.ValueIdx

/-- An array of extended reals of a given shape. -/
abbrev Arr (s : Shape) : Type := s.Idx → EReal

/-- The first result at row `r`: the first head of the states' row and the actions' row. -/
def qAt (s a : Arr ⟨2, ![32768, 512]⟩) (W₁ : Arr ⟨2, ![1024, 512]⟩) (b₁ : Arr ⟨1, ![512]⟩) (W₂ : Arr ⟨2, ![512, 512]⟩)
    (b₂ : Arr ⟨1, ![512]⟩) (W₃ : Arr ⟨2, ![512, 1]⟩) (b₃ : Arr ⟨1, ![1]⟩) (r : Fin 32768) : EReal :=
  head (fun j : Fin 512 => (∑ k : Fin 512, s (ix2 r k) * W₁ (ix2 ⟨k.val, by have := k.isLt; omega⟩ j))
      + ∑ k : Fin 512, a (ix2 r k) * W₁ (ix2 ⟨512 + k.val, by have := k.isLt; omega⟩ j))
    (fun j => b₁ (ix1 j)) (fun j k => W₂ (ix2 j k)) (fun k => b₂ (ix1 k)) (fun k => W₃ (ix2 k (0 : Fin 1))) (b₃ (ix1 (0 : Fin 1)))

/-- The second result at row `r`: the second head of the states' row. -/
def vAt (s : Arr ⟨2, ![32768, 512]⟩) (W₁ : Arr ⟨2, ![512, 512]⟩) (b₁ : Arr ⟨1, ![512]⟩) (W₂ : Arr ⟨2, ![512, 512]⟩)
    (b₂ : Arr ⟨1, ![512]⟩) (W₃ : Arr ⟨2, ![512, 1]⟩) (b₃ : Arr ⟨1, ![1]⟩) (r : Fin 32768) : EReal :=
  head (fun j : Fin 512 => ∑ k : Fin 512, s (ix2 r k) * W₁ (ix2 k j))
    (fun j => b₁ (ix1 j)) (fun j k => W₂ (ix2 j k)) (fun k => b₂ (ix1 k)) (fun k => W₃ (ix2 k (0 : Fin 1))) (b₃ (ix1 (0 : Fin 1)))

/-- A function of the row as a one-column array. -/
def column (f : Fin 32768 → EReal) : Arr ⟨2, ![32768, 1]⟩ := fun i => f ⟨(i 0).val, idx2_lt0 i⟩

theorem column_apply (f : Fin 32768 → EReal) (r : Fin 32768) (u : Fin 1) : column f (ix2 r u) = f r := rfl

end Cert.Critic

end
-- ==== Proof.LibHostRows.lean ====
/-
  Four readings at an index of host layout operations on matrices, for any extents.

  * A vector of `d` numbers made a `[1, d]` row and then repeated down `N` rows reads, at `(r, j)`, the vector at `j`.
  * The all-zero single-precision word held as a scalar and spread over any shape reads, everywhere, that word's value.
  * Two matrices with the same number of rows laid side by side read, at `(r, k)`, the left one at `(r, k)` when `k` is
    one of its columns and the right one at `(r, k - its width)` otherwise.
  * A column `[a, 1]` viewed as a row `[1, a]` reads, at `(u, i)`, the column at `(i, 0)`.
-/
import Idealize.ShloMosaic.PureOps.Ideal
import Idealize.ShloMosaic.Lib.ValueIdx
import Idealize.ShloMosaic.Lib.IdealHost
import Idealize.ShloMosaic.Lib.Pipeline.Value

noncomputable section

namespace Cert.Lib.HostRows

open Idealize.ShloMosaic Idealize.ShloMosaic.ValueIdx

variable {α : Type}

/-- A vector broadcast to one row and then to every row, at `(r, j)`: the vector at `j`. -/
theorem rowBias_apply {N d : ℕ} (b : (⟨1, ![d]⟩ : Shape).Idx → α)
    (h1 : (⟨1, ![d]⟩ : Shape).BroadcastsInDim ⟨2, ![1, d]⟩ ![1])
    (h2 : (⟨2, ![1, d]⟩ : Shape).BroadcastsInDim ⟨2, ![N, d]⟩ ![0, 1]) (r : Fin N) (j : Fin d) :
    broadcastInDim ⟨2, ![N, d]⟩ ![0, 1] h2 (broadcastInDim ⟨2, ![1, d]⟩ ![1] h1 b) (ix2 r j) = b (ix1 j) := by
  have hj : j.val = if d = 1 then 0 else j.val := by
    split
    · have := j.isLt; omega
    · rfl
  refine (broadcastInDim_apply _ h2 _ (ix2 r j) (ix2 (0 : Fin 1) j) (fun a => ?_)).trans
    (broadcastInDim_apply _ h1 b (ix2 (0 : Fin 1) j) (ix1 j) (fun a => ?_))
  · match a with
    | ⟨0, _⟩ => rfl
    | ⟨1, _⟩ => exact hj
  · match a with
    | ⟨0, _⟩ => exact hj

/-- The zero word as a scalar spread over a shape, anywhere: the word's value. -/
theorem zeroSplat_apply {T : Shape} (h : (⟨0, ![]⟩ : Shape).BroadcastsInDim T ![]) (i : T.Idx) :
    broadcastInDim T ![] h (constant (F := Ideal) ⟨0, ![]⟩ .f32 0x00000000#32) i = Ideal.ofBits .f32 0x00000000#32 := by
  rw [broadcastInDim_scalar_apply]
  rfl

/-- Two matrices side by side, at a column of the left one. -/
theorem sideBySide_left {N a b : ℕ} (x : (⟨2, ![N, a]⟩ : Shape).Idx → α) (y : (⟨2, ![N, b]⟩ : Shape).Idx → α)
    (h : Shape.Concatenates [⟨2, ![N, a]⟩, ⟨2, ![N, b]⟩] ⟨2, ![N, a + b]⟩ (1 : Fin 2)) (r : Fin N) (k : Fin a) :
    concatenate ⟨2, ![N, a + b]⟩ (1 : Fin 2) [⟨⟨2, ![N, a]⟩, x⟩, ⟨⟨2, ![N, b]⟩, y⟩] h
        (ix2 r ⟨k.val, by have := k.isLt; omega⟩) = x (ix2 r k) := by
  refine concatenate_pair_apply_left (t := ⟨2, ![N, a + b]⟩) (s₁ := ⟨2, ![N, a]⟩) (s₂ := ⟨2, ![N, b]⟩) _ x y h _ rfl (ix2 r k) (fun c => ?_)
  match c with
  | ⟨0, _⟩ => rfl
  | ⟨1, _⟩ => rfl

/-- Two matrices side by side, at a column of the right one. -/
theorem sideBySide_right {N a b : ℕ} (x : (⟨2, ![N, a]⟩ : Shape).Idx → α) (y : (⟨2, ![N, b]⟩ : Shape).Idx → α)
    (h : Shape.Concatenates [⟨2, ![N, a]⟩, ⟨2, ![N, b]⟩] ⟨2, ![N, a + b]⟩ (1 : Fin 2)) (r : Fin N) (k : Fin b) :
    concatenate ⟨2, ![N, a + b]⟩ (1 : Fin 2) [⟨⟨2, ![N, a]⟩, x⟩, ⟨⟨2, ![N, b]⟩, y⟩] h
        (ix2 r ⟨a + k.val, by have := k.isLt; omega⟩) = y (ix2 r k) := by
  refine concatenate_pair_apply_right (t := ⟨2, ![N, a + b]⟩) (s₁ := ⟨2, ![N, a]⟩) (s₂ := ⟨2, ![N, b]⟩) _ x y h _ rfl rfl (ix2 r k)
    (fun c hc => ?_) ?_
  · match c with
    | ⟨0, _⟩ => rfl
    | ⟨1, _⟩ => exact absurd rfl hc
  · show k.val + a = a + k.val
    omega

/-- A column viewed as a row, at `(u, i)`: the column at `(i, 0)`. -/
theorem columnAsRow_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

end Cert.Lib.HostRows

end
-- ==== Proof.KernelWhole.lean ====
/-
  The kernel's two results as functions of its launch arguments.

  Before the region the host lays the first 512 rows of the first head's first weights beside the second head's first
  weights (the matrix the body's wide product uses), keeps the remaining 512 rows apart (they meet the actions), and
  turns each bias vector into a one-row matrix and each last-layer weight column into a row; the changes of float
  format are the identity at the ideal values. Reading each of these at an entry turns the row functions of the
  previous module into `qAt` and `vAt` of the launch arguments. After the region the host cuts the two columns of
  the result array apart: these are the kernel's two results.
-/
import proofs.«166006_j74783970557989_2_alg».proof.Proof.KernelBlocks
import proofs.«166006_j74783970557989_2_alg».proof.Proof.CriticSpec
import proofs.«166006_j74783970557989_2_alg».proof.Proof.LibHostRows
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Blocks Cert.Critic Cert.Lib Idealize.ShloMosaic.ValueIdx
  Idealize.ShloMosaic.StableHlo

variable (m : (ℓ : Loc nD τ sig) → Buf (Elt Ideal) ℓ) (ρ : Dev nD → PrngReg)

/-! ## The launch arguments, entry by entry extended reals -/

abbrev arg0 (c : Dev nD) : S32768x512.Idx → EReal := m ((c : Thread nD τ).loc main_arg0)
abbrev arg1 (c : Dev nD) : S32768x512.Idx → EReal := m ((c : Thread nD τ).loc main_arg1)
abbrev arg2 (c : Dev nD) : S1024x512.Idx → EReal := m ((c : Thread nD τ).loc main_arg2)
abbrev arg3 (c : Dev nD) : S512.Idx → EReal := m ((c : Thread nD τ).loc main_arg3)
abbrev arg4 (c : Dev nD) : S512x512.Idx → EReal := m ((c : Thread nD τ).loc main_arg4)
abbrev arg5 (c : Dev nD) : S512.Idx → EReal := m ((c : Thread nD τ).loc main_arg5)
abbrev arg6 (c : Dev nD) : S512x1.Idx → EReal := m ((c : Thread nD τ).loc main_arg6)
abbrev arg7 (c : Dev nD) : S1.Idx → EReal := m ((c : Thread nD τ).loc main_arg7)
abbrev arg8 (c : Dev nD) : S512x512.Idx → EReal := m ((c : Thread nD τ).loc main_arg8)
abbrev arg9 (c : Dev nD) : S512.Idx → EReal := m ((c : Thread nD τ).loc main_arg9)
abbrev arg10 (c : Dev nD) : S512x512.Idx → EReal := m ((c : Thread nD τ).loc main_arg10)
abbrev arg11 (c : Dev nD) : S512.Idx → EReal := m ((c : Thread nD τ).loc main_arg11)
abbrev arg12 (c : Dev nD) : S512x1.Idx → EReal := m ((c : Thread nD τ).loc main_arg12)
abbrev arg13 (c : Dev nD) : S1.Idx → EReal := m ((c : Thread nD τ).loc main_arg13)

/-! ## The arrays the region finds, as the host operations before it made them -/

theorem ent0_eq (c : Dev nD) : ent0 m c = arg0 m c := V_main_arg0 m c
theorem ent1_eq (c : Dev nD) : ent1 m c = arg1 m c := V_main_arg1 m c

theorem ent2_term (c : Dev nD) : ent2 m c = truncf (F := Ideal) .bf16 (concatenate S512x1024 1 [⟨S512x512, extractStridedSlice S512x512 ![0, 0] (arg2 m c) slices_S1024x512_S512x512_0_0⟩, ⟨S512x512, arg8 m c⟩] concatenates_S512x512_S512x512_S512x1024_d1) bitsLt_bf16_f32 := by
  show StableHlo.after hostOps0 (fun b => m (c, b)) (Proc.devRef .tc main_v3) = _
  after_results <;> rfl
theorem ent3_term (c : Dev nD) : ent3 m c = truncf (F := Ideal) .bf16 (extractStridedSlice S512x512 ![512, 0] (arg2 m c) slices_S1024x512_S512x512_512_0) bitsLt_bf16_f32 := by
  show StableHlo.after hostOps0 (fun b => m (c, b)) (Proc.devRef .tc main_v4) = _
  after_results <;> rfl
theorem ent4_term (c : Dev nD) : ent4 m c = shapeCast S1x512 (arg3 m c) shapeCasts_S512_S1x512 := by
  show StableHlo.after hostOps0 (fun b => m (c, b)) (Proc.devRef .tc main_v7) = _
  after_results <;> rfl
theorem ent5_term (c : Dev nD) : ent5 m c = shapeCast S1x512 (arg9 m c) shapeCasts_S512_S1x512 := by
  show StableHlo.after hostOps0 (fun b => m (c, b)) (Proc.devRef .tc main_v8) = _
  after_results <;> rfl
theorem ent6_term (c : Dev nD) : ent6 m c = truncf (F := Ideal) .bf16 (arg4 m c) bitsLt_bf16_f32 := by
  show StableHlo.after hostOps0 (fun b => m (c, b)) (Proc.devRef .tc main_v5) = _
  after_results <;> rfl
theorem ent7_term (c : Dev nD) : ent7 m c = shapeCast S1x512 (arg5 m c) shapeCasts_S512_S1x512 := by
  show StableHlo.after hostOps0 (fun b => m (c, b)) (Proc.devRef .tc main_v9) = _
  after_results <;> rfl
theorem ent8_term (c : Dev nD) : ent8 m c = truncf (F := Ideal) .bf16 (arg10 m c) bitsLt_bf16_f32 := by
  show StableHlo.after hostOps0 (fun b => m (c, b)) (Proc.devRef .tc main_v6) = _
  after_results <;> rfl
theorem ent9_term (c : Dev nD) : ent9 m c = shapeCast S1x512 (arg11 m c) shapeCasts_S512_S1x512 := by
  show StableHlo.after hostOps0 (fun b => m (c, b)) (Proc.devRef .tc main_v10) = _
  after_results <;> rfl
theorem ent10_term (c : Dev nD) : ent10 m c = shapeCast S1x512 (arg6 m c) shapeCasts_S512x1_S1x512 := by
  show StableHlo.after hostOps0 (fun b => m (c, b)) (Proc.devRef .tc main_v11) = _
  after_results <;> rfl
theorem ent11_term (c : Dev nD) : ent11 m c = shapeCast S1x1 (arg7 m c) shapeCasts_S1_S1x1 := by
  show StableHlo.after hostOps0 (fun b => m (c, b)) (Proc.devRef .tc main_v13) = _
  after_results <;> rfl
theorem ent12_term (c : Dev nD) : ent12 m c = shapeCast S1x512 (arg12 m c) shapeCasts_S512x1_S1x512 := by
  show StableHlo.after hostOps0 (fun b => m (c, b)) (Proc.devRef .tc main_v12) = _
  after_results <;> rfl
theorem ent13_term (c : Dev nD) : ent13 m c = shapeCast S1x1 (arg13 m c) shapeCasts_S1_S1x1 := by
  show StableHlo.after hostOps0 (fun b => m (c, b)) (Proc.devRef .tc main_v14) = _
  after_results <;> rfl

/-! ## The same arrays read at an entry -/

/-- The side-by-side weights at a column of the left half: the first 512 rows of the first head's first weights. -/
theorem ent2_left (c : Dev nD) (i j : Fin 512) :
    ent2 m c (ix2 i ⟨j.val, by have := j.isLt; omega⟩) = arg2 m c (ix2 ⟨i.val, by have := i.isLt; omega⟩ j) := by
  rw [ent2_term, truncf_apply]
  refine (HostRows.sideBySide_left (N := 512) (a := 512) (b := 512) _ _ _ i j).trans ?_
  exact slice2_axis0_apply (n0 := 1024) (n1 := 512) (m := 512) 0 _ _ i j ⟨i.val, by have := i.isLt; omega⟩ (Nat.zero_add _).symm

/-- The side-by-side weights at a column of the right half: the second head's first weights. -/
theorem ent2_right (c : Dev nD) (i j : Fin 512) :
    ent2 m c (ix2 i ⟨512 + j.val, by have := j.isLt; omega⟩) = arg8 m c (ix2 i j) := by
  rw [ent2_term, truncf_apply]
  exact HostRows.sideBySide_right (N := 512) (a := 512) (b := 512) _ _ _ i j

/-- The weights that meet the actions: the last 512 rows of the first head's first weights. -/
theorem ent3_apply (c : Dev nD) (i j : Fin 512) :
    ent3 m c (ix2 i j) = arg2 m c (ix2 ⟨512 + i.val, by have := i.isLt; omega⟩ j) := by
  rw [ent3_term, truncf_apply]
  exact slice2_axis0_apply (n0 := 1024) (n1 := 512) (m := 512) 512 _ _ i j ⟨512 + i.val, by have := i.isLt; omega⟩ rfl

theorem ent4_apply (c : Dev nD) (j : Fin 512) : ent4 m c (ix2 (0 : Fin 1) j) = arg3 m c (ix1 j) := by
  rw [ent4_term]; exact shapeCast_a_1a_apply _ _ _ _
theorem ent5_apply (c : Dev nD) (j : Fin 512) : ent5 m c (ix2 (0 : Fin 1) j) = arg9 m c (ix1 j) := by
  rw [ent5_term]; exact shapeCast_a_1a_apply _ _ _ _
theorem ent6_apply (c : Dev nD) (j k : Fin 512) : ent6 m c (ix2 j k) = arg4 m c (ix2 j k) := by
  rw [ent6_term, truncf_apply]
theorem ent7_apply (c : Dev nD) (k : Fin 512) : ent7 m c (ix2 (0 : Fin 1) k) = arg5 m c (ix1 k) := by
  rw [ent7_term]; exact shapeCast_a_1a_apply _ _ _ _
theorem ent8_apply (c : Dev nD) (j k : Fin 512) : ent8 m c (ix2 j k) = arg10 m c (ix2 j k) := by
  rw [ent8_term, truncf_apply]
theorem ent9_apply (c : Dev nD) (k : Fin 512) : ent9 m c (ix2 (0 : Fin 1) k) = arg11 m c (ix1 k) := by
  rw [ent9_term]; exact shapeCast_a_1a_apply _ _ _ _
theorem ent10_apply (c : Dev nD) (k : Fin 512) : ent10 m c (ix2 (0 : Fin 1) k) = arg6 m c (ix2 k (0 : Fin 1)) := by
  rw [ent10_term]; exact HostRows.columnAsRow_apply _ _ _ _
theorem ent11_apply (c : Dev nD) : ent11 m c (ix2 (0 : Fin 1) (0 : Fin 1)) = arg7 m c (ix1 (0 : Fin 1)) := by
  rw [ent11_term]; exact shapeCast_a_1a_apply _ _ _ _
theorem ent12_apply (c : Dev nD) (k : Fin 512) : ent12 m c (ix2 (0 : Fin 1) k) = arg12 m c (ix2 k (0 : Fin 1)) := by
  rw [ent12_term]; exact HostRows.columnAsRow_apply _ _ _ _
theorem ent13_apply (c : Dev nD) : ent13 m c (ix2 (0 : Fin 1) (0 : Fin 1)) = arg13 m c (ix1 (0 : Fin 1)) := by
  rw [ent13_term]; exact shapeCast_a_1a_apply _ _ _ _

/-! ## The rows in terms of the launch arguments -/

/-- Row `r`'s first head is `qAt` of the launch arguments. -/
theorem qRow_eq (c : Dev nD) (r : Fin 32768) :
    qRow m c r = qAt (arg0 m c) (arg1 m c) (arg2 m c) (arg3 m c) (arg4 m c) (arg5 m c) (arg6 m c) (arg7 m c) r := by
  unfold qRow qAt
  refine head_congr (fun j => ?_) (fun j => ent4_apply m c j) (fun j k => ent6_apply m c j k) (fun k => ent7_apply m c k)
    (fun k => ent10_apply m c k) (ent11_apply m c)
  refine congrArg₂ (· + ·) (Finset.sum_congr rfl fun i _ => ?_) (Finset.sum_congr rfl fun i _ => ?_)
  · rw [ent0_eq, ent2_left]
  · rw [ent1_eq, ent3_apply]

/-- Row `r`'s second head is `vAt` of the launch arguments. -/
theorem vRow_eq (c : Dev nD) (r : Fin 32768) :
    vRow m c r = vAt (arg0 m c) (arg8 m c) (arg9 m c) (arg10 m c) (arg11 m c) (arg12 m c) (arg13 m c) r := by
  unfold vRow vAt
  refine head_congr (fun j => ?_) (fun j => ent5_apply m c j) (fun j k => ent8_apply m c j k) (fun k => ent9_apply m c k)
    (fun k => ent12_apply m c k) (ent13_apply m c)
  refine Finset.sum_congr rfl fun i _ => ?_
  rw [ent0_eq, ent2_right]

/-! ## The two slices after the region -/

/-- The first result: column 0 of the result array. -/
theorem tail_q (c : Dev nD) :
    @Eq (S32768x1.Idx → EReal) (Pipeline.afterTail₀ cfgs (dats m) 0 (V0 m) [hostOps1] c main_v16)
      (column (qAt (arg0 m c) (arg1 m c) (arg2 m c) (arg3 m c) (arg4 m c) (arg5 m c) (arg6 m c) (arg7 m c))) := by
  unfold Pipeline.afterTail₀
  show StableHlo.after hostOps1 _ (Proc.devRef .tc main_v16) = _
  after_results
  refine (congrArg (fun A => extractStridedSlice S32768x1 ![0, 0] A slices_S32768x2_S32768x1_0_0)
    ((Pipeline.withArrays_arr spec0 launch0.win.arr_inj c (V0 m c) (fun w => (dats m 0 c).arrAt w (cfgs 0).N) 14).trans (final m c))).trans ?_
  funext i
  obtain ⟨r, u, rfl⟩ : ∃ (r : Fin 32768) (u : Fin 1), i = ix2 r u := ⟨i 0, i 1, eq_ix2 i⟩
  obtain rfl : u = 0 := Subsingleton.elim _ _
  rw [column_apply, ← qRow_eq, ← outArr_q]
  exact slice2_axis1_apply (n0 := 32768) (n1 := 2) (m := 1) 0 _ _ r (0 : Fin 1) (0 : Fin 2) rfl

/-- The second result: column 1 of the result array. -/
theorem tail_v (c : Dev nD) :
    @Eq (S32768x1.Idx → EReal) (Pipeline.afterTail₀ cfgs (dats m) 0 (V0 m) [hostOps1] c main_v17)
      (column (vAt (arg0 m c) (arg8 m c) (arg9 m c) (arg10 m c) (arg11 m c) (arg12 m c) (arg13 m c))) := by
  unfold Pipeline.afterTail₀
  show StableHlo.after hostOps1 _ (Proc.devRef .tc main_v17) = _
  after_results
  refine (congrArg (fun A => extractStridedSlice S32768x1 ![0, 1] A slices_S32768x2_S32768x1_0_1)
    ((Pipeline.withArrays_arr spec0 launch0.win.arr_inj c (V0 m c) (fun w => (dats m 0 c).arrAt w (cfgs 0).N) 14).trans (final m c))).trans ?_
  funext i
  obtain ⟨r, u, rfl⟩ : ∃ (r : Fin 32768) (u : Fin 1), i = ix2 r u := ⟨i 0, i 1, eq_ix2 i⟩
  obtain rfl : u = 0 := Subsingleton.elim _ _
  rw [column_apply, ← vRow_eq, ← outArr_v]
  exact slice2_axis1_apply (n0 := 32768) (n1 := 2) (m := 1) 1 _ _ r (0 : Fin 1) (1 : Fin 2) rfl

/-! ## The run -/

/-- Every weakly fair execution of the idealized kernel terminates with its two results at the columns of `qAt` and
    `vAt` of the launch arguments, and the arguments unchanged. -/
theorem run : θ_run defs (onTc (τ := τ) (main (F := Ideal))) ⟨m, fun _ => 0, ρ⟩ fun r => ∀ c : Dev nD,
      r.2.mem ((c.tc : Thread nD τ).loc main_v16)
          = column (qAt (arg0 m c) (arg1 m c) (arg2 m c) (arg3 m c) (arg4 m c) (arg5 m c) (arg6 m c) (arg7 m c))
      ∧ r.2.mem ((c.tc : Thread nD τ).loc main_v17)
          = column (vAt (arg0 m c) (arg8 m c) (arg9 m c) (arg10 m c) (arg11 m c) (arg12 m c) (arg13 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨((h c).2 main_v16 (Pipeline.mem_restRefs_of main_v16 (by decide) (by decide))).trans (tail_q m c),
      ((h c).2 main_v17 (Pipeline.mem_restRefs_of main_v17 (by decide) (by decide))).trans (tail_v m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.Whole

end
-- ==== Proof.LibFinSplit.lean ====
/-
  A finite sum over an initial segment of the naturals, cut at a point.

  For any commutative additive monoid, the sum of `f` over `Fin N` is the sum over the first `n` indices plus
  the sum over the remaining `m`, whenever `n + m = N`; the second part is indexed from zero and reads `f` at
  `n + k`. Nothing here depends on a program: it is a statement about `Fin` and `Finset.sum` only.
-/
import Mathlib.Algebra.BigOperators.Fin

namespace Cert.Lib.FinSplit

open Finset

/-- The sum over `Fin N` is the sum over the first `n` indices plus the sum over the last `m`, for `n + m = N`:
    an index below the cut is itself, an index `k` of the second part is `n + k`. -/
theorem sum_fin_split {M : Type*} [AddCommMonoid M] {N : ℕ} (n m : ℕ) (h : n + m = N) (f : Fin N → M) :
    ∑ k : Fin N, f k
      = ∑ k : Fin n, f ⟨k.val, by have := k.isLt; omega⟩ + ∑ k : Fin m, f ⟨n + k.val, by have := k.isLt; omega⟩ := by
  subst h
  exact Fin.sum_univ_add f

/-- The same cut made three times: a sum over `Fin N` with `N = n + n + n + n` is the sum of its four consecutive
    blocks of `n` indices, block `b` reading `f` at `b * n + k` (written out: `k`, `n + k`, `n + n + k`, `n + n + n + k`). -/
theorem sum_fin_four_blocks {M : Type*} [AddCommMonoid M] {N : ℕ} (n : ℕ) (h : n + n + n + n = N) (f : Fin N → M) :
    ∑ k : Fin N, f k
      = ∑ k : Fin n, f ⟨k.val, by have := k.isLt; omega⟩
        + ∑ k : Fin n, f ⟨n + k.val, by have := k.isLt; omega⟩
        + ∑ k : Fin n, f ⟨n + n + k.val, by have := k.isLt; omega⟩
        + ∑ k : Fin n, f ⟨n + n + n + k.val, by have := k.isLt; omega⟩ := by
  rw [sum_fin_split (n + n + n) n h f, sum_fin_split (n + n) n rfl (fun k : Fin (n + n + n) => f ⟨k.val, by have := k.isLt; omega⟩),
    sum_fin_split n n rfl (fun k : Fin (n + n) => f ⟨k.val, by have := k.isLt; omega⟩)]

end Cert.Lib.FinSplit
-- ==== Proof.LibHostDense.lean ====
/-
  A dense layer on the host read at an entry, at the ideal values, for any extents.

  The layer multiplies an `[N, n]` matrix of inputs by an `[n, d]` matrix of weights (contracting the inputs' columns
  with the weights' rows) and adds a bias vector of `d` numbers repeated down the rows. At `(r, j)` that is
  `(∑ k, X (r, k) · W (k, j)) + b j`. With a rectifier behind it — the entrywise maximum with the all-zero word spread
  over the shape — it is the maximum of that number and the zero word's value.
-/
import proofs.«166006_j74783970557989_2_alg».proof.Proof.LibMatSum
import proofs.«166006_j74783970557989_2_alg».proof.Proof.LibHostRows

noncomputable section

namespace Cert.Lib.HostDense

open Idealize.ShloMosaic Idealize.ShloMosaic.ValueIdx Idealize.ShloMosaic.MatSum Cert.Lib.HostRows

variable {N n d : ℕ}

/-- Product plus bias, at `(r, j)`. -/
theorem dense_entry (w : DotDims.WF ⟨2, ![N, n]⟩ ⟨2, ![n, d]⟩ ⟨2, ![N, d]⟩ [1] [0] [0] [1] [] [])
    (X : FVec Ideal ⟨2, ![N, n]⟩ .f32) (W : FVec Ideal ⟨2, ![n, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![N, d]⟩ ![0, 1]) (r : Fin N) (j : Fin d) :
    addf (Host.dotGeneral (⟨[1], [0], [0], [1], [], [], w⟩ : DotDims ⟨2, ![N, n]⟩ ⟨2, ![n, d]⟩ ⟨2, ![N, d]⟩) none X W)
        (broadcastInDim ⟨2, ![N, d]⟩ ![0, 1] h2 (broadcastInDim ⟨2, ![1, d]⟩ ![1] h1 b)) (ix2 r j)
      = (∑ k : Fin n, X (ix2 r k) * W (ix2 k j)) + b (ix1 j) := by
  rw [addf_apply, dotGeneral_entry, rowBias_apply]

/-- Product plus bias, rectified, at `(r, j)`. -/
theorem denseRelu_entry (w : DotDims.WF ⟨2, ![N, n]⟩ ⟨2, ![n, d]⟩ ⟨2, ![N, d]⟩ [1] [0] [0] [1] [] [])
    (X : FVec Ideal ⟨2, ![N, n]⟩ .f32) (W : FVec Ideal ⟨2, ![n, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![N, d]⟩ ![0, 1])
    (h0 : (⟨0, ![]⟩ : Shape).BroadcastsInDim ⟨2, ![N, d]⟩ ![]) (r : Fin N) (j : Fin d) :
    maximumf (addf (Host.dotGeneral (⟨[1], [0], [0], [1], [], [], w⟩ : DotDims ⟨2, ![N, n]⟩ ⟨2, ![n, d]⟩ ⟨2, ![N, d]⟩) none X W)
          (broadcastInDim ⟨2, ![N, d]⟩ ![0, 1] h2 (broadcastInDim ⟨2, ![1, d]⟩ ![1] h1 b)))
        (broadcastInDim ⟨2, ![N, d]⟩ ![] h0 (constant (F := Ideal) ⟨0, ![]⟩ .f32 0x00000000#32)) (ix2 r j)
      = max ((∑ k : Fin n, X (ix2 r k) * W (ix2 k j)) + b (ix1 j)) (Ideal.ofBits .f32 0x00000000#32) := by
  rw [maximumf_apply, dense_entry, zeroSplat_apply]

end Cert.Lib.HostDense

end
-- ==== Proof.RefValue.lean ====
/-
  The reference's two results are `qAt` and `vAt` of its arguments.

  The reference joins each row of states with the row of actions into one row of 1024 numbers and multiplies it by the
  first head's first weights; every layer is a product, a bias repeated down the rows and a rectifier. Read at an entry
  each layer is a sum over the contracted index. The one place where the two programs differ in arrangement is the
  first head's first layer: the sum over the 1024 joined columns is the sum over the first 512 — where the joined row
  is the states' row — plus the sum over the last 512 — where it is the actions' row. That is a regrouping of a finite
  sum, valid in any commutative additive monoid, so it holds on the extended reals without any finiteness.
-/
import proofs.«166006_j74783970557989_2_alg».proof.Proof.Gen.ReferenceIdeal.Read
import proofs.«166006_j74783970557989_2_alg».proof.Proof.CriticSpec
import proofs.«166006_j74783970557989_2_alg».proof.Proof.LibFinSplit
import proofs.«166006_j74783970557989_2_alg».proof.Proof.LibHostDense

noncomputable section

namespace Cert.ReferenceIdeal.RefValue

open Cert.ReferenceIdeal Cert.ReferenceIdeal.Gen Cert.ReferenceIdeal.Read Cert.Critic Cert.Lib
  Idealize.ShloMosaic Idealize.ShloMosaic.ValueIdx

/-- The first head's first hidden layer at `(r, j)`, over the joined row. -/
theorem hidden1Q (x0 x1 : (⟨S32768x512, .f32⟩ : BufTy).Contents (Elt Ideal)) (x2 : (⟨S1024x512, .f32⟩ : BufTy).Contents (Elt Ideal)) (x3 : (⟨S512, .f32⟩ : BufTy).Contents (Elt Ideal))
    (r : Fin 32768) (j : Fin 512) :
    val_main_v5 (F := Ideal) x0 x1 x2 x3 (ix2 r j)
      = relu ((∑ k : Fin 1024, val_main_v0 (F := Ideal) x0 x1 (ix2 r k) * x2 (ix2 k j)) + x3 (ix1 j)) := by
  unfold val_main_v5 val_main_v4 val_main_v3 val_main_v2 val_main_v1 val_main_call0_v0 val_main_call0_cst
  exact HostDense.denseRelu_entry _ _ _ _ _ _ _ r j

/-- The joined row's sum cut at column 512: the states' part plus the actions' part. -/
theorem joined_sum (x0 x1 : (⟨S32768x512, .f32⟩ : BufTy).Contents (Elt Ideal)) (x2 : (⟨S1024x512, .f32⟩ : BufTy).Contents (Elt Ideal)) (r : Fin 32768) (j : Fin 512) :
    (∑ k : Fin 1024, val_main_v0 (F := Ideal) x0 x1 (ix2 r k) * x2 (ix2 k j))
      = (∑ k : Fin 512, x0 (ix2 r k) * x2 (ix2 ⟨k.val, by have := k.isLt; omega⟩ j))
        + ∑ k : Fin 512, x1 (ix2 r k) * x2 (ix2 ⟨512 + k.val, by have := k.isLt; omega⟩ j) := by
  rw [FinSplit.sum_fin_split 512 512 rfl]
  unfold val_main_v0
  refine congrArg₂ (· + ·) (Finset.sum_congr rfl fun k _ => ?_) (Finset.sum_congr rfl fun k _ => ?_)
  · exact congrArg (· * x2 (ix2 ⟨k.val, by have := k.isLt; omega⟩ j)) (HostRows.sideBySide_left (N := 32768) (a := 512) (b := 512) x0 x1 _ r k)
  · exact congrArg (· * x2 (ix2 ⟨512 + k.val, by have := k.isLt; omega⟩ j)) (HostRows.sideBySide_right (N := 32768) (a := 512) (b := 512) x0 x1 _ r k)

/-- THE FIRST RESULT of the reference is the column of `qAt`. -/
theorem ref_q (x0 x1 : (⟨S32768x512, .f32⟩ : BufTy).Contents (Elt Ideal)) (x2 : (⟨S1024x512, .f32⟩ : BufTy).Contents (Elt Ideal)) (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x1, .f32⟩ : BufTy).Contents (Elt Ideal)) (x7 : (⟨S1, .f32⟩ : BufTy).Contents (Elt Ideal)) :
    val_main_v14 (F := Ideal) x0 x1 x2 x3 x4 x5 x6 x7 = column (qAt x0 x1 x2 x3 x4 x5 x6 x7) := by
  funext i
  obtain ⟨r, u, rfl⟩ : ∃ (r : Fin 32768) (u : Fin 1), i = ix2 r u := ⟨i 0, i 1, eq_ix2 i⟩
  obtain rfl : u = 0 := Subsingleton.elim _ _
  rw [column_apply]
  unfold qAt head
  unfold val_main_v14 val_main_v13 val_main_v12 val_main_v11
  refine (HostDense.dense_entry _ _ _ _ _ _ r (0 : Fin 1)).trans ?_
  refine congrArg (· + x7 (ix1 (0 : Fin 1))) (Finset.sum_congr rfl fun k _ => congrArg (· * x6 (ix2 k (0 : Fin 1))) ?_)
  unfold val_main_v10 val_main_v9 val_main_v8 val_main_v7 val_main_v6 val_main_call1_v0 val_main_call1_cst
  refine (HostDense.denseRelu_entry _ _ _ _ _ _ _ r k).trans ?_
  refine congrArg (fun s => relu (s + x5 (ix1 k))) (Finset.sum_congr rfl fun j _ => congrArg (· * x4 (ix2 j k)) ?_)
  rw [hidden1Q, joined_sum]

/-- THE SECOND RESULT of the reference is the column of `vAt`. -/
theorem ref_v (x0 : (⟨S32768x512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal))
    (x11 : (⟨S512, .f32⟩ : BufTy).Contents (Elt Ideal)) (x12 : (⟨S512x1, .f32⟩ : BufTy).Contents (Elt Ideal)) (x13 : (⟨S1, .f32⟩ : BufTy).Contents (Elt Ideal)) :
    val_main_v28 (F := Ideal) x0 x8 x9 x10 x11 x12 x13 = column (vAt x0 x8 x9 x10 x11 x12 x13) := by
  funext i
  obtain ⟨r, u, rfl⟩ : ∃ (r : Fin 32768) (u : Fin 1), i = ix2 r u := ⟨i 0, i 1, eq_ix2 i⟩
  obtain rfl : u = 0 := Subsingleton.elim _ _
  rw [column_apply]
  unfold vAt head
  unfold val_main_v28 val_main_v27 val_main_v26 val_main_v25
  refine (HostDense.dense_entry _ _ _ _ _ _ r (0 : Fin 1)).trans ?_
  refine congrArg (· + x13 (ix1 (0 : Fin 1))) (Finset.sum_congr rfl fun k _ => congrArg (· * x12 (ix2 k (0 : Fin 1))) ?_)
  unfold val_main_v24 val_main_v23 val_main_v22 val_main_v21 val_main_v20 val_main_call3_v0 val_main_call3_cst
  refine (HostDense.denseRelu_entry _ _ _ _ _ _ _ r k).trans ?_
  refine congrArg (fun s => relu (s + x11 (ix1 k))) (Finset.sum_congr rfl fun j _ => congrArg (· * x10 (ix2 j k)) ?_)
  unfold val_main_v19 val_main_v18 val_main_v17 val_main_v16 val_main_v15 val_main_call2_v0 val_main_call2_cst
  exact HostDense.denseRelu_entry _ _ _ _ _ _ _ r j

end Cert.ReferenceIdeal.RefValue

end
-- ==== Proof.lean ====
/-
  The critic kernel against its reference, over the extended reals.

  Both programs compute, for each of 32768 input rows, two numbers. The first is a three-layer perceptron (two hidden
  layers of 512 rectified units, one output) applied to the row of 512 state features followed by the row of 512
  action features; the second is another such perceptron applied to the state features alone.

  The reference does this with whole-array operations: it joins states and actions into rows of 1024 and multiplies by
  the 1024-row first weight matrix. The kernel works on blocks of 1024 rows. It never joins the inputs: it multiplies
  the states by the first 512 rows of the first head's first weights laid beside the second head's first weights (one
  wide product serving both heads), adds the actions times the remaining 512 rows, and computes each head's last layer
  — a product with a single column — as an elementwise product summed along the lanes.

  At the ideal values a change of float format is the identity, a matrix product is the plain sum over the contracted
  index, and a lane sum is a plain finite sum. So the two programs differ only in how finite sums are grouped: a sum
  over 1024 joined columns against the sum over the first 512 plus the sum over the last 512, and columns cut out of a
  wide product against products with the separate matrices. Addition on the extended reals is commutative and
  associative, so these regroupings hold for every input; the finiteness precondition is not used.

  The modules: `HeadSpec` and `CriticSpec` state one head and the two results as functions of the arguments;
  `KernelPayload` reads what the kernel body stores for a block, entry by entry; `KernelBlocks` shows the 32 blocks
  fill the result array; `KernelWhole` reads the host operations around the region and states the kernel's run;
  `RefValue` reads the reference's run as the same functions. Here the five claims are put together.
-/
import proofs.«166006_j74783970557989_2_alg».proof.Defs
import proofs.«166006_j74783970557989_2_alg».proof.Proof.Gen.Kernel
import proofs.«166006_j74783970557989_2_alg».proof.Proof.Gen.Kernel.Skeleton
import proofs.«166006_j74783970557989_2_alg».proof.Proof.Gen.Kernel.Launch
import proofs.«166006_j74783970557989_2_alg».proof.Proof.Gen.Kernel.Points
import proofs.«166006_j74783970557989_2_alg».proof.Proof.Gen.Kernel.Frame
import proofs.«166006_j74783970557989_2_alg».proof.Proof.Gen.KernelIdeal
import proofs.«166006_j74783970557989_2_alg».proof.Proof.Gen.KernelIdeal.Skeleton
import proofs.«166006_j74783970557989_2_alg».proof.Proof.Gen.KernelIdeal.Launch
import proofs.«166006_j74783970557989_2_alg».proof.Proof.Gen.KernelIdeal.Points
import proofs.«166006_j74783970557989_2_alg».proof.Proof.Gen.KernelIdeal.Frame
import proofs.«166006_j74783970557989_2_alg».proof.Proof.Gen.ReferenceIdeal
import proofs.«166006_j74783970557989_2_alg».proof.Proof.Gen.Pre_finite_inputs
import proofs.«166006_j74783970557989_2_alg».proof.Proof.Gen.ReferenceIdeal.Run
import proofs.«166006_j74783970557989_2_alg».proof.Proof.Gen.ReferenceIdeal.Read
import proofs.«166006_j74783970557989_2_alg».proof.Proof.KernelWhole
import proofs.«166006_j74783970557989_2_alg».proof.Proof.RefValue
import Idealize.ShloMosaic.Adequacy
import Idealize.ShloMosaic.Init

noncomputable section

namespace Cert.Proof

open Idealize.ShloMosaic Idealize.SL.Sem Cert.Critic

/-- The kernel as printed terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both idealized programs end with the first result at the column of `qAt` and the
    second at the column of `vAt` of those arguments. -/
theorem algebraic : Cert.algebraic_KernelIdeal_ReferenceIdeal := by
  intro m ρ m' ρ' _ hagree
  refine ⟨fun c => column (qAt (Cert.KernelIdeal.Whole.arg0 m c) (Cert.KernelIdeal.Whole.arg1 m c) (Cert.KernelIdeal.Whole.arg2 m c) (Cert.KernelIdeal.Whole.arg3 m c) (Cert.KernelIdeal.Whole.arg4 m c) (Cert.KernelIdeal.Whole.arg5 m c) (Cert.KernelIdeal.Whole.arg6 m c) (Cert.KernelIdeal.Whole.arg7 m c)), fun c => column (vAt (Cert.KernelIdeal.Whole.arg0 m c) (Cert.KernelIdeal.Whole.arg8 m c) (Cert.KernelIdeal.Whole.arg9 m c) (Cert.KernelIdeal.Whole.arg10 m c) (Cert.KernelIdeal.Whole.arg11 m c) (Cert.KernelIdeal.Whole.arg12 m c) (Cert.KernelIdeal.Whole.arg13 m c)), Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, -⟩ := hagree c
    refine (Cert.ReferenceIdeal.RefValue.ref_q _ _ _ _ _ _ _ _).trans ?_
    rw [e0, e1, e2, e3, e4, e5, e6, e7]
  · obtain ⟨e0, -, -, -, -, -, -, -, e8, e9, e10, e11, e12, e13⟩ := hagree c
    refine (Cert.ReferenceIdeal.RefValue.ref_v _ _ _ _ _ _ _).trans ?_
    rw [e0, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
